-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S8192x2048 : Shape := ⟨2, ![8192, 2048]⟩
abbrev S8196x8196 : Shape := ⟨2, ![8196, 8196]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x2048, .f32⟩
  | .hbm, ⟨1, _⟩ => ⟨S8196x8196, .f32⟩
  | .local _ .vmem, ⟨0, _⟩ => ⟨S1024x1024, .f32⟩
  | .local _ .vmem, ⟨1, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![9, 9], ![false, false]⟩

def k0_cond1 (i : grid0.Coords) : BitVec 1 :=
  let arg0 : BitVec 32 := BitVec.ofNat 32 (i 0).val
  let arg1 : BitVec 32 := BitVec.ofNat 32 (i 1).val
  let v0 : BitVec 1 := Scalar.cmpi .eq arg0 arg1
  let c8_i32 : BitVec 32 := 8#32
  let v1 : BitVec 1 := Scalar.cmpi .slt arg0 c8_i32
  let v2 : BitVec 1 := Scalar.andi v0 v1
  let v7 : BitVec 32 := Scalar.extui v2
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let arg1 : BitVec 32 := BitVec.ofNat 32 (i 1).val
  let v3 : BitVec 1 := Scalar.cmpi .eq arg0 arg1
  let c8_i32_0 : BitVec 32 := 8#32
  let v4 : BitVec 1 := Scalar.cmpi .eq arg0 c8_i32_0
  let v5 : BitVec 1 := Scalar.andi v3 v4
  let v9 : BitVec 32 := Scalar.extui v5
  let c0_i32_1 : BitVec 32 := 0#32
  let v10 : BitVec 1 := Scalar.cmpi .ne v9 c0_i32_1
  v10

def k0_cond3 (i : grid0.Coords) : BitVec 1 :=
  let arg0 : BitVec 32 := BitVec.ofNat 32 (i 0).val
  let arg1 : BitVec 32 := BitVec.ofNat 32 (i 1).val
  let v6 : BitVec 1 := Scalar.cmpi .ne arg0 arg1
  let v11 : BitVec 32 := Scalar.extui v6
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1024.size a < S8196x8196.size a
  hwx0_0 : ∀ i : grid0.Coords, EltTy.bits .f32 = 32 ∨ (Rect.unit (s := S8196x8196) (fun a => cc0_transform_0 i a * S1024x1024.size a) (fun a => (Pipeline.Clip.of (cc0_transform_0 i a) (S1024x1024.size a) (S8196x8196.size a)).extent (S1024x1024.size a)) fun a => Pipeline.Clip.inb (Pipeline.Clip.ok_of (hstart0_0 i a))).WholeWords (EltTy.packing .f32)
  hwxs0_0 : ∀ i : grid0.Coords, EltTy.bits .f32 = 32 ∨ (Rect.unit (s := S1024x1024) (fun _ => 0) (fun a => (Pipeline.Clip.of (cc0_transform_0 i a) (S1024x1024.size a) (S8196x8196.size a)).extent (S1024x1024.size a)) fun a => (Nat.zero_add _).trans_le (Pipeline.Clip.extent_le (Pipeline.Clip.ok_of (hstart0_0 i a)))).WholeWords (EltTy.packing .f32)

variable [Facts₀]

abbrev win0_0 : Pipeline.Window sig grid0 :=
  Pipeline.Window.ofSpecClip (Memref.whole main_v0) S1024x1024.size cc0_transform_0 reads0_0 true false 2 stage0_0 sem0_0
    hrank0 hreads0_0 hstart0_0 nbuf0_0 (Memref.isWhole_whole _) hwx0_0 hwxs0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev idle0 : Fin 1 → grid0.Coords → Bool := fun | 0 => fun i => !(k0_cond1 i == 1#1) && !(k0_cond2 i == 1#1) && !(k0_cond3 i == 1#1) | ⟨_ + 1, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8196x8196 : Shape := ⟨2, ![8196, 8196]⟩
abbrev S_ : Shape := ⟨0, ![]⟩
abbrev S1 : Shape := ⟨1, ![1]⟩
abbrev S2 : Shape := ⟨1, ![2]⟩
abbrev S4x4 : Shape := ⟨2, ![4, 4]⟩
abbrev S8196 : Shape := ⟨1, ![8196]⟩
abbrev S8196x1 : Shape := ⟨2, ![8196, 1]⟩
abbrev S1x8196 : Shape := ⟨2, ![1, 8196]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8196x8196, .i32⟩
  | .hbm, ⟨2, _⟩ => ⟨S8196x8196, .i32⟩
  | .hbm, ⟨3, _⟩ => ⟨S_, .i32⟩
  | .hbm, ⟨4, _⟩ => ⟨S8196x8196, .i32⟩
  | .hbm, ⟨5, _⟩ => ⟨S8196x8196, .i32⟩
  | .hbm, ⟨6, _⟩ => ⟨S8196x8196, .i1⟩
  | .hbm, ⟨7, _⟩ => ⟨S8196x8196, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S_, .f32⟩
  | .hbm, ⟨14, _⟩ => ⟨S4x4, .f32⟩
  | .hbm, ⟨15, _⟩ => ⟨S8196x8196, .f32⟩
  | .hbm, ⟨16, _⟩ => ⟨S_, .f32⟩
  | .hbm, ⟨17, _⟩ => ⟨S8196, .f32⟩
  | .hbm, ⟨18, _⟩ => ⟨S_, .f32⟩
  | .hbm, ⟨19, _⟩ => ⟨S8196, .f32⟩
  | .hbm, ⟨20, _⟩ => ⟨S8196, .f32⟩
  | .hbm, ⟨21, _⟩ => ⟨S8196x1, .f32⟩
  | .hbm, ⟨22, _⟩ => ⟨S8196x8196, .f32⟩
  | .hbm, ⟨23, _⟩ => ⟨S8196x8196, .f32⟩
  | .hbm, ⟨24, _⟩ => ⟨S8196x8196, .f32⟩
  | .hbm, ⟨25, _⟩ => ⟨S1x8196, .f32⟩
  | .hbm, ⟨26, _⟩ => ⟨S8196x8196, .f32⟩
  | .hbm, ⟨27, _⟩ => ⟨S8196x8196, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S_S8196x8196 : S_.BroadcastsInDim S8196x8196 (![] : Fin 0 → Fin S8196x8196.rank)
  bcast_S_S1 : S_.BroadcastsInDim S1 (![] : Fin 0 → Fin S1.rank)
  concatenates_S1_S1_S2_d0 : Shape.Concatenates [S1, S1] S2 0
  bcast_S_S4x4 : S_.BroadcastsInDim S4x4 (![] : Fin 0 → Fin S4x4.rank)
  reducesTo_S8196x8196_S8196_d1 : S8196x8196.ReducesTo [1] S8196
  h_S_ : 0 < S_.numel
  bcast_S_S8196 : S_.BroadcastsInDim S8196 (![] : Fin 0 → Fin S8196.rank)
  bcast_S8196_S8196x1_0 : S8196.BroadcastsInDim S8196x1 (![0] : Fin 1 → Fin S8196x1.rank)
  transposes_S8196x8196_S8196x8196_1_0 : S8196x8196.Transposes [1, 0] S8196x8196
  bcast_S8196x1_S8196x8196_0_1 : S8196x1.BroadcastsInDim S8196x8196 (![0, 1] : Fin 2 → Fin S8196x8196.rank)
  bcast_S8196_S1x8196_1 : S8196.BroadcastsInDim S1x8196 (![1] : Fin 1 → Fin S1x8196.rank)
  bcast_S1x8196_S8196x8196_0_1 : S1x8196.BroadcastsInDim S8196x8196 (![0, 1] : Fin 2 → Fin S8196x8196.rank)
  scatter_S8196x8196_S2_S4x4_01_n_01_0_wf : ScatterDims.WF S8196x8196 S2 S4x4 [0, 1] [] [0, 1] 0

variable [Facts₀]

def scatter_S8196x8196_S2_S4x4_01_n_01_0 : ScatterDims S8196x8196 S2 S4x4 where
  updateWindowDims := [0, 1]
  insertedWindowDims := []
  scatterDimsToOperandDims := [0, 1]
  indexVectorDim := 0
  wf := scatter_S8196x8196_S2_S4x4_01_n_01_0_wf

class Facts : Prop extends Facts₀ where

variable [Facts]
-- ==== Proof.BodyWords.lean ====
/-
  The body of the adjacency kernel at every grid point, and the run of the whole program built on it.

  The result is an 8196 × 8196 array written in 9 × 9 tiles of 1024 × 1024; the last tile on each axis overhangs
  the array and only its first four rows (columns) are written back. At the point (i, j) exactly one of the body's
  three guarded stores happens:
    * i = j < 8 — the tile lies on the diagonal inside the first 8192 rows: it stores the local identity pattern,
      one where the row and the column inside the tile agree and zero elsewhere;
    * i = j = 8 — the corner tile: it stores the constant 1/4;
    * i ≠ j     — an off-diagonal tile: it stores zeros.
  Each store overwrites the whole staging buffer, so after the body the buffer holds the stored value whatever it held
  before (`tile`). Since one of the three conditions holds at every point, no point leaves the buffer as it found it.
  The body reads nothing: the program's one argument array is never staged, and ends as it began.
-/
import proofs.«174708_j14740327759981_2_alg».proof.Proof.Gen.Kernel.Frame
import proofs.«174708_j14740327759981_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which store happens at a point -/

/-- At every point of the grid exactly one of the three conditions holds: the point is on the diagonal before the
    last tile, or it is the corner, or it is off the diagonal. Decided over the 81 points. -/
theorem one_store : ∀ t : Fin cfg0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) :=
  (by decide +kernel : ∀ t : Fin grid0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1))

/-- So the body stores into the result's staging buffer at every point. -/
theorem never_idle : ∀ t : Fin cfg0.N, idle0 0 (grid0.coords t) = false :=
  (by decide +kernel : ∀ t : Fin grid0.N, idle0 0 (grid0.coords t) = false)

/-- What the body leaves in the staging buffer at the point of coordinates `i`: the value of the store that happens. -/
def tile (i : grid0.Coords) : S1024x1024.Idx → Elt F .f32 :=
  if k0_cond1 i = 1#1 then k0_pay1 (F := F) else if k0_cond2 i = 1#1 then k0_pay2 (F := F) else k0_pay3 (F := F)

theorem tile_diag {i : grid0.Coords} (h1 : k0_cond1 i = 1#1) : tile (F := F) i = k0_pay1 (F := F) := by
  unfold tile; rw [if_pos h1]
theorem tile_corner {i : grid0.Coords} (h1 : ¬k0_cond1 i = 1#1) (h2 : k0_cond2 i = 1#1) : tile (F := F) i = k0_pay2 (F := F) := by
  unfold tile; rw [if_neg h1, if_pos h2]
theorem tile_off {i : grid0.Coords} (h1 : ¬k0_cond1 i = 1#1) (h2 : ¬k0_cond2 i = 1#1) : tile (F := F) i = k0_pay3 (F := F) := by
  unfold tile; rw [if_neg h1, if_neg h2]

/-! ## The body on any whole staging buffer -/

/-- One store through the rectangle that is the whole buffer (offsets zero, the buffer's own sizes) leaves its value:
    every index of the buffer is under the rectangle, at itself. -/
theorem read_whole_store {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h; funext y
  have e := View.read_writes_cons_emb v f (Rect.whole S) w [] y
  rw [Rect.emb_whole_apply] at e
  exact e

theorem zeros2 : (![0, 0] : Fin 2 → Nat) = fun _ => 0 := funext fun a => by fin_cases a <;> rfl

/-- On the diagonal before the last tile: from the staging buffer at any contents the body ends with the buffer at the
    identity tile (only the first of its three guarded stores happens). -/
theorem body_diag (c : Dev nD) (i : grid0.Coords) (arg2 : Memref sig .tc .vmem S1024x1024 .f32) (harg2 : arg2.IsWhole)
    (h1 : k0_cond1 i = 1#1) (h2 : ¬k0_cond2 i = 1#1) (h3 : ¬k0_cond3 i = 1#1) (E : Set ℕ) (K : PUnit → sProp 𝕄) :
    iprop((∃ d, owns (c : Thread nD τ) arg2 fullShare d)
        ∗ (owns (c : Thread nD τ) arg2 fullShare (k0_pay1 (F := F)) -∗ K ⟨⟩))
      ⊢ wp frame (wpE (defs₀ (F := F)) Variants.none c none) E (cc0__adj_fast_kernel i arg2 harg2) K := by
  simp only [cc0__adj_fast_kernel_eq_skeleton]; unfold cc0__adj_fast_kernel_skel
  unfold owns
  iintro ⟨⟨%d1, %f1, -, H1⟩, Hk⟩
  sl_exec (disch := first | exact h1 | exact h2 | exact h3)
  sl_step
  iapply Hk
  iexists _; isplitr
  swap; · iexact H1
  ipureintro; exact read_whole_store _ _ zeros2 _ _

/-- At the corner the body leaves the constant tile. -/
theorem body_corner (c : Dev nD) (i : grid0.Coords) (arg2 : Memref sig .tc .vmem S1024x1024 .f32) (harg2 : arg2.IsWhole)
    (h1 : ¬k0_cond1 i = 1#1) (h2 : k0_cond2 i = 1#1) (h3 : ¬k0_cond3 i = 1#1) (E : Set ℕ) (K : PUnit → sProp 𝕄) :
    iprop((∃ d, owns (c : Thread nD τ) arg2 fullShare d)
        ∗ (owns (c : Thread nD τ) arg2 fullShare (k0_pay2 (F := F)) -∗ K ⟨⟩))
      ⊢ wp frame (wpE (defs₀ (F := F)) Variants.none c none) E (cc0__adj_fast_kernel i arg2 harg2) K := by
  simp only [cc0__adj_fast_kernel_eq_skeleton]; unfold cc0__adj_fast_kernel_skel
  unfold owns
  iintro ⟨⟨%d1, %f1, -, H1⟩, Hk⟩
  sl_exec (disch := first | exact h1 | exact h2 | exact h3)
  sl_step
  iapply Hk
  iexists _; isplitr
  swap; · iexact H1
  ipureintro; exact read_whole_store _ _ zeros2 _ _

/-- Off the diagonal the body leaves the zero tile. -/
theorem body_off (c : Dev nD) (i : grid0.Coords) (arg2 : Memref sig .tc .vmem S1024x1024 .f32) (harg2 : arg2.IsWhole)
    (h1 : ¬k0_cond1 i = 1#1) (h2 : ¬k0_cond2 i = 1#1) (h3 : k0_cond3 i = 1#1) (E : Set ℕ) (K : PUnit → sProp 𝕄) :
    iprop((∃ d, owns (c : Thread nD τ) arg2 fullShare d)
        ∗ (owns (c : Thread nD τ) arg2 fullShare (k0_pay3 (F := F)) -∗ K ⟨⟩))
      ⊢ wp frame (wpE (defs₀ (F := F)) Variants.none c none) E (cc0__adj_fast_kernel i arg2 harg2) K := by
  simp only [cc0__adj_fast_kernel_eq_skeleton]; unfold cc0__adj_fast_kernel_skel
  unfold owns
  iintro ⟨⟨%d1, %f1, -, H1⟩, Hk⟩
  sl_exec (disch := first | exact h1 | exact h2 | exact h3)
  sl_step
  iapply Hk
  iexists _; isplitr
  swap; · iexact H1
  ipureintro; exact read_whole_store _ _ zeros2 _ _

/-- The body at any point of the grid, on any whole staging buffer at any contents: it ends with the buffer at the
    point's tile. By the case the point is in. -/
theorem body_any (c : Dev nD) (t : Fin cfg0.N) (arg2 : Memref sig .tc .vmem S1024x1024 .f32) (harg2 : arg2.IsWhole)
    (E : Set ℕ) (K : PUnit → sProp 𝕄) :
    iprop((∃ d, owns (c : Thread nD τ) arg2 fullShare d)
        ∗ (owns (c : Thread nD τ) arg2 fullShare (tile (F := F) (grid0.coords t)) -∗ K ⟨⟩))
      ⊢ wp frame (wpE (defs₀ (F := F)) Variants.none c none) E (cc0__adj_fast_kernel (grid0.coords t) arg2 harg2) K := by
  rcases one_store t with ⟨h1, h2, h3⟩ | ⟨h1, h2, h3⟩ | ⟨h1, h2, h3⟩
  · rw [tile_diag h1]; exact body_diag c _ arg2 harg2 h1 h2 h3 E K
  · rw [tile_corner h1 h2]; exact body_corner c _ arg2 harg2 h1 h2 h3 E K
  · rw [tile_off h1 h2]; exact body_off c _ arg2 harg2 h1 h2 h3 E K

/-! ## The proof data and the body obligation -/

/-- The proof data of the one pipeline on core `c`: the result array as the region finds it; after the body at point
    `t` the staging buffer at the point's tile; the invariant the scoped rest and the generator register, which the
    body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile (F := F) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_eq (c : Dev nD) (t : Fin cfg0.N) : (dats m 0 c).after 0 t = tile (F := F) (grid0.coords t) := by
  dsimp only [dats]

/-- The library's body obligation: at every point the staging buffer arrives at some contents and leaves at the
    point's tile; the invariant passes through unread and the core owes nothing throughout. No point is idle. -/
theorem body_obligation (c : Dev nD) : BodyObligation (dats (F := F) m 0 c) (defs₀ (F := F)) Variants.none () Set.univ := fun t => by
  rw [bigSep_W0, bigSep_W0]
  have hi : idle0 0 (grid0.coords t) = false := never_idle t
  simp only [hi]
  rw [show (dats m 0 c).Φ t.succ = (dats m 0 c).Φ t.castSucc from rfl,
    show (dats m 0 c).owesAt () t.succ = (dats m 0 c).owesAt () t.castSucc from rfl, after_eq]
  iintro ⟨HΦ, Ho, ⟨%d0, H0⟩⟩
  iapply (body_any (F := F) c t (win0_0.stage (cfg0.slots t 0)) (hstage0_0 ((cfg0.slots t 0).cast nbuf0_0)) Set.univ _)
  isplitl [H0]
  · iexists _; iexact H0
  iintro H0
  isplitl [HΦ]; · iexact HΦ
  isplitl [Ho]; · iexact Ho
  iexact H0

/-! ## The run and the frame -/

set_option backward.isDefEq.respectTransparency.types false in
/-- For any values, from any memory with zero counters: every weakly fair execution of the program terminates, the
    result array ends at what the write-backs of the proof data's tiles make of it, and every other unscoped buffer
    — the argument array — as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.BodyIdeal.lean ====
/-
  The body of the adjacency kernel at every grid point, and the run of the whole program built on it.

  The result is an 8196 × 8196 array written in 9 × 9 tiles of 1024 × 1024; the last tile on each axis overhangs
  the array and only its first four rows (columns) are written back. At the point (i, j) exactly one of the body's
  three guarded stores happens:
    * i = j < 8 — the tile lies on the diagonal inside the first 8192 rows: it stores the local identity pattern,
      one where the row and the column inside the tile agree and zero elsewhere;
    * i = j = 8 — the corner tile: it stores the constant 1/4;
    * i ≠ j     — an off-diagonal tile: it stores zeros.
  Each store overwrites the whole staging buffer, so after the body the buffer holds the stored value whatever it held
  before (`tile`). Since one of the three conditions holds at every point, no point leaves the buffer as it found it.
  The body reads nothing: the program's one argument array is never staged, and ends as it began.
-/
import proofs.«174708_j14740327759981_2_alg».proof.Proof.Gen.KernelIdeal.Frame
import proofs.«174708_j14740327759981_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which store happens at a point -/

/-- At every point of the grid exactly one of the three conditions holds: the point is on the diagonal before the
    last tile, or it is the corner, or it is off the diagonal. Decided over the 81 points. -/
theorem one_store : ∀ t : Fin cfg0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) :=
  (by decide +kernel : ∀ t : Fin grid0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1))

/-- So the body stores into the result's staging buffer at every point. -/
theorem never_idle : ∀ t : Fin cfg0.N, idle0 0 (grid0.coords t) = false :=
  (by decide +kernel : ∀ t : Fin grid0.N, idle0 0 (grid0.coords t) = false)

/-- What the body leaves in the staging buffer at the point of coordinates `i`: the value of the store that happens. -/
def tile (i : grid0.Coords) : S1024x1024.Idx → Elt F .f32 :=
  if k0_cond1 i = 1#1 then k0_pay1 (F := F) else if k0_cond2 i = 1#1 then k0_pay2 (F := F) else k0_pay3 (F := F)

theorem tile_diag {i : grid0.Coords} (h1 : k0_cond1 i = 1#1) : tile (F := F) i = k0_pay1 (F := F) := by
  unfold tile; rw [if_pos h1]
theorem tile_corner {i : grid0.Coords} (h1 : ¬k0_cond1 i = 1#1) (h2 : k0_cond2 i = 1#1) : tile (F := F) i = k0_pay2 (F := F) := by
  unfold tile; rw [if_neg h1, if_pos h2]
theorem tile_off {i : grid0.Coords} (h1 : ¬k0_cond1 i = 1#1) (h2 : ¬k0_cond2 i = 1#1) : tile (F := F) i = k0_pay3 (F := F) := by
  unfold tile; rw [if_neg h1, if_neg h2]

/-! ## The body on any whole staging buffer -/

/-- One store through the rectangle that is the whole buffer (offsets zero, the buffer's own sizes) leaves its value:
    every index of the buffer is under the rectangle, at itself. -/
theorem read_whole_store {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h; funext y
  have e := View.read_writes_cons_emb v f (Rect.whole S) w [] y
  rw [Rect.emb_whole_apply] at e
  exact e

theorem zeros2 : (![0, 0] : Fin 2 → Nat) = fun _ => 0 := funext fun a => by fin_cases a <;> rfl

/-- On the diagonal before the last tile: from the staging buffer at any contents the body ends with the buffer at the
    identity tile (only the first of its three guarded stores happens). -/
theorem body_diag (c : Dev nD) (i : grid0.Coords) (arg2 : Memref sig .tc .vmem S1024x1024 .f32) (harg2 : arg2.IsWhole)
    (h1 : k0_cond1 i = 1#1) (h2 : ¬k0_cond2 i = 1#1) (h3 : ¬k0_cond3 i = 1#1) (E : Set ℕ) (K : PUnit → sProp 𝕄) :
    iprop((∃ d, owns (c : Thread nD τ) arg2 fullShare d)
        ∗ (owns (c : Thread nD τ) arg2 fullShare (k0_pay1 (F := F)) -∗ K ⟨⟩))
      ⊢ wp frame (wpE (defs₀ (F := F)) Variants.none c none) E (cc0__adj_fast_kernel i arg2 harg2) K := by
  simp only [cc0__adj_fast_kernel_eq_skeleton]; unfold cc0__adj_fast_kernel_skel
  unfold owns
  iintro ⟨⟨%d1, %f1, -, H1⟩, Hk⟩
  sl_exec (disch := first | exact h1 | exact h2 | exact h3)
  sl_step
  iapply Hk
  iexists _; isplitr
  swap; · iexact H1
  ipureintro; exact read_whole_store _ _ zeros2 _ _

/-- At the corner the body leaves the constant tile. -/
theorem body_corner (c : Dev nD) (i : grid0.Coords) (arg2 : Memref sig .tc .vmem S1024x1024 .f32) (harg2 : arg2.IsWhole)
    (h1 : ¬k0_cond1 i = 1#1) (h2 : k0_cond2 i = 1#1) (h3 : ¬k0_cond3 i = 1#1) (E : Set ℕ) (K : PUnit → sProp 𝕄) :
    iprop((∃ d, owns (c : Thread nD τ) arg2 fullShare d)
        ∗ (owns (c : Thread nD τ) arg2 fullShare (k0_pay2 (F := F)) -∗ K ⟨⟩))
      ⊢ wp frame (wpE (defs₀ (F := F)) Variants.none c none) E (cc0__adj_fast_kernel i arg2 harg2) K := by
  simp only [cc0__adj_fast_kernel_eq_skeleton]; unfold cc0__adj_fast_kernel_skel
  unfold owns
  iintro ⟨⟨%d1, %f1, -, H1⟩, Hk⟩
  sl_exec (disch := first | exact h1 | exact h2 | exact h3)
  sl_step
  iapply Hk
  iexists _; isplitr
  swap; · iexact H1
  ipureintro; exact read_whole_store _ _ zeros2 _ _

/-- Off the diagonal the body leaves the zero tile. -/
theorem body_off (c : Dev nD) (i : grid0.Coords) (arg2 : Memref sig .tc .vmem S1024x1024 .f32) (harg2 : arg2.IsWhole)
    (h1 : ¬k0_cond1 i = 1#1) (h2 : ¬k0_cond2 i = 1#1) (h3 : k0_cond3 i = 1#1) (E : Set ℕ) (K : PUnit → sProp 𝕄) :
    iprop((∃ d, owns (c : Thread nD τ) arg2 fullShare d)
        ∗ (owns (c : Thread nD τ) arg2 fullShare (k0_pay3 (F := F)) -∗ K ⟨⟩))
      ⊢ wp frame (wpE (defs₀ (F := F)) Variants.none c none) E (cc0__adj_fast_kernel i arg2 harg2) K := by
  simp only [cc0__adj_fast_kernel_eq_skeleton]; unfold cc0__adj_fast_kernel_skel
  unfold owns
  iintro ⟨⟨%d1, %f1, -, H1⟩, Hk⟩
  sl_exec (disch := first | exact h1 | exact h2 | exact h3)
  sl_step
  iapply Hk
  iexists _; isplitr
  swap; · iexact H1
  ipureintro; exact read_whole_store _ _ zeros2 _ _

/-- The body at any point of the grid, on any whole staging buffer at any contents: it ends with the buffer at the
    point's tile. By the case the point is in. -/
theorem body_any (c : Dev nD) (t : Fin cfg0.N) (arg2 : Memref sig .tc .vmem S1024x1024 .f32) (harg2 : arg2.IsWhole)
    (E : Set ℕ) (K : PUnit → sProp 𝕄) :
    iprop((∃ d, owns (c : Thread nD τ) arg2 fullShare d)
        ∗ (owns (c : Thread nD τ) arg2 fullShare (tile (F := F) (grid0.coords t)) -∗ K ⟨⟩))
      ⊢ wp frame (wpE (defs₀ (F := F)) Variants.none c none) E (cc0__adj_fast_kernel (grid0.coords t) arg2 harg2) K := by
  rcases one_store t with ⟨h1, h2, h3⟩ | ⟨h1, h2, h3⟩ | ⟨h1, h2, h3⟩
  · rw [tile_diag h1]; exact body_diag c _ arg2 harg2 h1 h2 h3 E K
  · rw [tile_corner h1 h2]; exact body_corner c _ arg2 harg2 h1 h2 h3 E K
  · rw [tile_off h1 h2]; exact body_off c _ arg2 harg2 h1 h2 h3 E K

/-! ## The proof data and the body obligation -/

/-- The proof data of the one pipeline on core `c`: the result array as the region finds it; after the body at point
    `t` the staging buffer at the point's tile; the invariant the scoped rest and the generator register, which the
    body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile (F := F) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_eq (c : Dev nD) (t : Fin cfg0.N) : (dats m 0 c).after 0 t = tile (F := F) (grid0.coords t) := by
  dsimp only [dats]

/-- The library's body obligation: at every point the staging buffer arrives at some contents and leaves at the
    point's tile; the invariant passes through unread and the core owes nothing throughout. No point is idle. -/
theorem body_obligation (c : Dev nD) : BodyObligation (dats (F := F) m 0 c) (defs₀ (F := F)) Variants.none () Set.univ := fun t => by
  rw [bigSep_W0, bigSep_W0]
  have hi : idle0 0 (grid0.coords t) = false := never_idle t
  simp only [hi]
  rw [show (dats m 0 c).Φ t.succ = (dats m 0 c).Φ t.castSucc from rfl,
    show (dats m 0 c).owesAt () t.succ = (dats m 0 c).owesAt () t.castSucc from rfl, after_eq]
  iintro ⟨HΦ, Ho, ⟨%d0, H0⟩⟩
  iapply (body_any (F := F) c t (win0_0.stage (cfg0.slots t 0)) (hstage0_0 ((cfg0.slots t 0).cast nbuf0_0)) Set.univ _)
  isplitl [H0]
  · iexists _; iexact H0
  iintro H0
  isplitl [HΦ]; · iexact HΦ
  isplitl [Ho]; · iexact Ho
  iexact H0

/-! ## The run and the frame -/

set_option backward.isDefEq.respectTransparency.types false in
/-- For any values, from any memory with zero counters: every weakly fair execution of the program terminates, the
    result array ends at what the write-backs of the proof data's tiles make of it, and every other unscoped buffer
    — the argument array — as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.AdjacencyLaw.lean ====
/-
  The normalised adjacency of the identity with a block of ones in its last four rows and columns, as mathematics.

  Let A be the 8196 × 8196 matrix with A[r, k] = 1 when r = k, or when both r and k are at least 8192, and 0 elsewhere
  (`entry`). Row r of A sums to 1 for r < 8192 (only the diagonal entry) and to 4 for r ≥ 8192 (the four ones of the
  block; the diagonal entry is one of them) — `row_sum`. With d_r = (row sum)^(-1/2), that is 1 or 1/2, the scaled
  matrix d_r · A[c, r] · d_c is
      1    where r = c < 8192,
      1/4  where r, c ≥ 8192,
      0    elsewhere
  (`scaled_entry`). Every quantity is a real number, so on the extended reals the same holds with the coercion
  pushed through the finite sum, the power and the two products (`scaled_entry_ereal`).
-/
import Idealize.ShloMosaic.PureOps.Ideal

noncomputable section

namespace Cert.Adjacency

open Idealize.ShloMosaic

/-! ## The four float constants the two programs spell -/

theorem word_one : Ideal.ofBits .f32 0x3F800000#32 = ((1 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee]
theorem word_quarter : Ideal.ofBits .f32 0x3E800000#32 = ((1 / 4 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

/-! ## The matrix and its row sums -/

/-- A[r, k]: the identity, with ones wherever both coordinates are at least 8192. -/
def entry (r k : ℕ) : ℝ := if r = k ∨ (8192 ≤ r ∧ 8192 ≤ k) then 1 else 0

/-- The scaled matrix's entries. -/
def scaled (r c : ℕ) : ℝ := if r = c ∧ r < 8192 then 1 else if 8192 ≤ r ∧ 8192 ≤ c then 1 / 4 else 0

/-- The sum of row r: 1 above the block, 4 inside it. -/
def rowSum (r : ℕ) : ℝ := if r < 8192 then 1 else 4

theorem row_sum (r : ℕ) (hr : r < 8196) : ∑ k : Fin 8196, entry r k.val = rowSum r := by
  unfold rowSum
  by_cases h : r < 8192
  · -- only the diagonal entry is not zero
    rw [if_pos h, Finset.sum_eq_single (⟨r, hr⟩ : Fin 8196)]
    · unfold entry; rw [if_pos (Or.inl rfl)]
    · intro k _ hk
      unfold entry
      rw [if_neg]
      rintro (e | ⟨e, -⟩)
      · exact hk (Fin.ext e.symm)
      · omega
    · intro hn; exact absurd (Finset.mem_univ _) hn
  · -- the row is the indicator of the last four columns
    rw [if_neg h]
    have e : ∀ k : ℕ, entry r k = if 8192 ≤ k then 1 else 0 := fun k => by
      unfold entry
      by_cases hk : 8192 ≤ k
      · rw [if_pos (Or.inr ⟨by omega, hk⟩), if_pos hk]
      · rw [if_neg (by rintro (e | ⟨-, e⟩) <;> omega), if_neg hk]
    simp only [e]
    rw [Fin.sum_univ_eq_sum_range (fun k => if 8192 ≤ k then (1 : ℝ) else 0) 8196]
    have e4 : Finset.range 8196 = Finset.range (8192 + 1 + 1 + 1 + 1) := rfl
    have h0 : ∑ k ∈ Finset.range 8192, (if 8192 ≤ k then (1 : ℝ) else 0) = 0 :=
      Finset.sum_eq_zero fun k hk => if_neg (by have := Finset.mem_range.mp hk; omega)
    rw [e4, Finset.sum_range_succ, Finset.sum_range_succ, Finset.sum_range_succ, Finset.sum_range_succ, h0]
    norm_num

/-! ## The powers -/

theorem one_pow_neg_half : Real.rpow 1 (-(1 / 2)) = 1 := Real.one_rpow _

theorem four_pow_neg_half : Real.rpow 4 (-(1 / 2)) = 1 / 2 := by
  show (4 : ℝ) ^ (-(1 / 2) : ℝ) = 1 / 2
  rw [show (4 : ℝ) = (2 : ℝ) ^ (2 : ℝ) by norm_num, ← Real.rpow_mul (by norm_num)]
  norm_num [Real.rpow_neg_one]

/-- d_r = (row sum)^(-1/2): 1 above the block, 1/2 inside it. -/
theorem rowSum_pow (r : ℕ) : Real.rpow (rowSum r) (-(1 / 2)) = if r < 8192 then 1 else 1 / 2 := by
  unfold rowSum
  by_cases h : r < 8192
  · rw [if_pos h, if_pos h]; exact one_pow_neg_half
  · rw [if_neg h, if_neg h]; exact four_pow_neg_half

/-! ## The law -/

/-- d_r · A[c, r] · d_c is the scaled matrix. -/
theorem scaled_entry (r c : ℕ) :
    Real.rpow (rowSum r) (-(1 / 2)) * entry c r * Real.rpow (rowSum c) (-(1 / 2)) = scaled r c := by
  rw [rowSum_pow, rowSum_pow]
  unfold entry scaled
  by_cases hr : r < 8192 <;> by_cases hc : c < 8192
  · by_cases e : c = r
    · rw [if_pos hr, if_pos hc, if_pos (Or.inl e), if_pos ⟨e.symm, hr⟩]; norm_num
    · rw [if_pos hr, if_pos hc, if_neg (by rintro (h | ⟨h, -⟩) <;> omega), if_neg (fun h => e h.1.symm),
        if_neg (by rintro ⟨h, -⟩; omega)]; norm_num
  · rw [if_pos hr, if_neg hc, if_neg (by rintro (h | ⟨-, h⟩) <;> omega), if_neg (by rintro ⟨h, -⟩; omega),
      if_neg (by rintro ⟨h, -⟩; omega)]; norm_num
  · rw [if_neg hr, if_pos hc, if_neg (by rintro (h | ⟨h, -⟩) <;> omega), if_neg (by rintro ⟨-, h⟩; omega),
      if_neg (by rintro ⟨-, h⟩; omega)]; norm_num
  · rw [if_neg hr, if_neg hc, if_pos (Or.inr ⟨by omega, by omega⟩), if_neg (by rintro ⟨-, h⟩; omega),
      if_pos ⟨by omega, by omega⟩]; norm_num

/-- The coercion of the reals into the extended reals commutes with a finite sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The same law on the extended reals, as the reference computes it: the row sums start from zero, the power is the
    extended reals' (the real power on real arguments), the products are the extended reals'. -/
theorem scaled_entry_ereal (r c : ℕ) (hr : r < 8196) (hc : c < 8196) :
    Ideal.pow (((0 : ℝ) : EReal) + ∑ k : Fin 8196, ((entry r k.val : ℝ) : EReal)) ((-(1 / 2) : ℝ) : EReal)
        * ((entry c r : ℝ) : EReal)
        * Ideal.pow (((0 : ℝ) : EReal) + ∑ k : Fin 8196, ((entry c k.val : ℝ) : EReal)) ((-(1 / 2) : ℝ) : EReal)
      = ((scaled r c : ℝ) : EReal) := by
  rw [coe_sum, coe_sum, row_sum r hr, row_sum c hc, ← EReal.coe_add, ← EReal.coe_add, zero_add, zero_add,
    Ideal.pow_coe_coe, Ideal.pow_coe_coe, ← EReal.coe_mul, ← EReal.coe_mul, scaled_entry]

end Cert.Adjacency

end
-- ==== Proof.Words.lean ====
/-
  Comparing two small natural numbers as 32-bit words.

  Both programs build their masks by comparing coordinates converted to 32-bit words. A coordinate of an array of
  at most 2^32 elements per axis is its own word, so comparing the words is comparing the numbers.
-/
import Idealize.ShloMosaic.PureOps.Float

namespace Cert.Words

open Idealize.ShloMosaic

/-- Two numbers below 2^32 are equal as 32-bit words only if they are equal. -/
theorem ofNat_inj {a b : ℕ} (ha : a < 2 ^ 32) (hb : b < 2 ^ 32) (h : BitVec.ofNat 32 a = BitVec.ofNat 32 b) : a = b := by
  have e := congrArg BitVec.toNat h
  rw [BitVec.toNat_ofNat, BitVec.toNat_ofNat, Nat.mod_eq_of_lt ha, Nat.mod_eq_of_lt hb] at e
  exact e

/-- The equality comparison of two such words is the one-bit word 1 exactly when the numbers are equal. -/
theorem cmpi_eq_ofNat {a b : ℕ} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun e => h (ofNat_inj ha hb e)
    rw [beq_eq_false_iff_ne.mpr hne]
    rfl

end Cert.Words
-- ==== Proof.KernelValue.lean ====
/-
  What the kernel leaves in the result array: the scaled adjacency matrix, index by index.

  The run of the program (the body module) ends with the result array at its entry contents overwritten, point by
  point, by the part inside the array of each point's tile. Here each such part is identified with the same part of
  ONE function of the index, the scaled matrix (`adj`):
    * a tile (p, p) with p < 8 holds one where the local row and column agree, which at the array's index
      (1024 p + y₀, 1024 p + y₁) is "row = column, and the row is below 8192";
    * the corner tile (8, 8) holds 1/4, and its part inside the array is rows and columns 8192 … 8195;
    * a tile (p, q) with p ≠ q holds zero, and none of its indices is on the diagonal or in the corner block.
  The 81 parts cover the array (the part of tile (r / 1024, c / 1024) holds the index (r, c)), so the array ends
  holding the scaled matrix.
-/
import proofs.«174708_j14740327759981_2_alg».proof.Proof.BodyIdeal
import proofs.«174708_j14740327759981_2_alg».proof.Proof.AdjacencyLaw
import proofs.«174708_j14740327759981_2_alg».proof.Proof.Words
import Idealize.ShloMosaic.Lib.Pipeline.Value
import Idealize.ShloMosaic.Lib.ValueIdx

set_option maxRecDepth 16384

noncomputable section

namespace Cert.KernelIdeal.AdjValue

open Cert.KernelIdeal Cert.KernelIdeal.Gen Cert.KernelIdeal.Body Cert.Adjacency
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The scaled matrix as an array of extended reals. -/
def adj : S8196x8196.Idx → EReal := fun i => ((scaled (i 0).val (i 1).val : ℝ) : EReal)

/-! ## The three tiles, index by index -/

/-- The identity tile: one where the local row and column agree. -/
theorem identity_tile (y : S1024x1024.Idx) :
    k0_pay1 (F := Ideal) y = (((if (y 0).val = (y 1).val then 1 else 0 : ℝ)) : EReal) := by
  unfold k0_pay1
  dsimp only
  rw [select_apply, broadcast_apply, broadcast_apply]
  show Scalar.select (IntOp.cmpi .eq (iota .tc S1024x1024 32 [0] iota_S1024x1024_d0_w32 y)
    (iota .tc S1024x1024 32 [1] iota_S1024x1024_d1_w32 y)) (Ideal.ofBits .f32 0x3F800000#32) (Ideal.ofBits .f32 0x00000000#32) = _
  have h0 : (y 0).val < 1024 := (y 0).isLt
  have h1 : (y 1).val < 1024 := (y 1).isLt
  rw [iota_single_apply, iota_single_apply, Cert.Words.cmpi_eq_ofNat (by omega) (by omega), word_one, word_zero]
  unfold Scalar.select
  by_cases e : (y 0).val = (y 1).val
  · rw [if_pos e, if_pos e]; exact if_pos (by decide)
  · rw [if_neg e, if_neg e]; exact if_neg (by decide)

/-- The corner tile: the constant 1/4. -/
theorem corner_tile (y : S1024x1024.Idx) : k0_pay2 (F := Ideal) y = ((1 / 4 : ℝ) : EReal) := by
  show Ideal.ofBits .f32 0x3E800000#32 = _
  exact word_quarter

/-- An off-diagonal tile: zero. -/
theorem zero_tile (y : S1024x1024.Idx) : k0_pay3 (F := Ideal) y = ((0 : ℝ) : EReal) := by
  show Ideal.ofBits .f32 0x00000000#32 = _
  exact word_zero

/-! ## Where a point's tile sits -/

/-- The grid is walked row by row: point `t` is tile (t / 9, t % 9); its part inside the array has 1024 rows (columns),
    or 4 in the last tile of the axis; and the first two conditions in closed form. Decided over the 81 points. -/
theorem point_facts : ∀ t : Fin cfg0.N,
    win0_0.index t (0 : Fin 2) = t.val / 9 ∧ win0_0.index t (1 : Fin 2) = t.val % 9
    ∧ win0_0.xsize (grid0.coords t) (0 : Fin 2) = (if t.val / 9 = 8 then 4 else 1024)
    ∧ win0_0.xsize (grid0.coords t) (1 : Fin 2) = (if t.val % 9 = 8 then 4 else 1024)
    ∧ (k0_cond1 (grid0.coords t) = 1#1 ↔ t.val / 9 = t.val % 9 ∧ t.val / 9 < 8)
    ∧ (k0_cond2 (grid0.coords t) = 1#1 ↔ t.val / 9 = t.val % 9 ∧ t.val / 9 = 8) :=
  (by decide +kernel : ∀ t : Fin grid0.N, _)

/-- WHAT POINT `t` WRITES BACK is the part of the scaled matrix under the point's block. -/
theorem flushed_eq (c : Dev nD) (t : Fin cfg0.N) :
    (dats m 0 c).flushed 0 t = ((cfg0.win 0).blk t).view.read (Elt Ideal) adj := by
  show (cfg0.win 0).cut (grid0.coords t) ((dats m 0 c).after 0 t) = _
  rw [after_eq]
  funext j
  show tile (F := Ideal) (grid0.coords t) (win0_0.xinj (grid0.coords t) j) = adj (((cfg0.win 0).blk t).view.emb j)
  obtain ⟨i0, i1, x0, x1, c1, c2⟩ := point_facts t
  have e0 : ((((cfg0.win 0).blk t).view.emb j) 0).val = win0_0.index t (0 : Fin 2) * 1024 + 1 * (j 0).val := rfl
  have e1 : ((((cfg0.win 0).blk t).view.emb j) 1).val = win0_0.index t (1 : Fin 2) * 1024 + 1 * (j 1).val := rfl
  have j0 : (j 0).val < win0_0.xsize (grid0.coords t) (0 : Fin 2) := (j 0).isLt
  have j1 : (j 1).val < win0_0.xsize (grid0.coords t) (1 : Fin 2) := (j 1).isLt
  have tN : t.val < 81 := lt_of_lt_of_eq t.isLt (show cfg0.N = 81 from N_0)
  rw [i0] at e0; rw [i1] at e1; rw [x0] at j0; rw [x1] at j1
  have b0 : (j 0).val < 1024 ∧ (t.val / 9 = 8 → (j 0).val < 4) := by split_ifs at j0 <;> omega
  have b1 : (j 1).val < 1024 ∧ (t.val % 9 = 8 → (j 1).val < 4) := by split_ifs at j1 <;> omega
  unfold adj
  rw [e0, e1]
  rcases one_store t with ⟨h1, h2, h3⟩ | ⟨h1, h2, h3⟩ | ⟨h1, h2, h3⟩
  · rw [tile_diag h1, identity_tile]
    have d := c1.mp h1
    refine congrArg (fun x : ℝ => (x : EReal)) ?_
    show (if (j 0).val = (j 1).val then (1 : ℝ) else 0) = _
    unfold scaled
    split_ifs <;> first | rfl | (exfalso; omega)
  · rw [tile_corner h1 h2, corner_tile]
    have d := c2.mp h2
    refine congrArg (fun x : ℝ => (x : EReal)) ?_
    unfold scaled
    split_ifs <;> first | rfl | (exfalso; omega)
  · rw [tile_off h1 h2, zero_tile]
    have d1 := mt c1.mpr h1
    have d2 := mt c2.mpr h2
    refine congrArg (fun x : ℝ => (x : EReal)) ?_
    unfold scaled
    split_ifs <;> first | rfl | (exfalso; omega)

/-! ## The parts cover the array -/

/-- An index of the array is in point `t`'s block iff each coordinate is among the rows (columns) of the block inside
    the array. -/
theorem mem_blk (t : Fin cfg0.N) (i : S8196x8196.Idx) :
    i ∈ ((cfg0.win 0).blk t).view.set ↔ ∀ a : Fin 2, win0_0.index t a * S1024x1024.size a ≤ (i a).val
      ∧ (i a).val < win0_0.index t a * S1024x1024.size a + win0_0.xsize (grid0.coords t) a := by
  show i ∈ ((View.whole main_v0).slice (win0_0.rect t)).set ↔ _
  rw [View.set_slice_whole, Rect.mem_set_unit]
  exact Iff.rfl

/-- Every index (r, c) of the array is in the block of the point (r / 1024, c / 1024). -/
theorem cover (i : S8196x8196.Idx) : ∃ t : Fin cfg0.N, (cfg0.win 0).flush t = true ∧ i ∈ ((cfg0.win 0).blk t).view.set := by
  have hi0 : (i 0).val < 8196 := (i 0).isLt
  have hi1 : (i 1).val < 8196 := (i 1).isLt
  let t : Fin cfg0.N := ⟨(i 0).val / 1024 * 9 + (i 1).val / 1024, by rw [show cfg0.N = 81 from N_0]; omega⟩
  have tv : t.val = (i 0).val / 1024 * 9 + (i 1).val / 1024 := rfl
  refine ⟨t, flush0_0 t, ?_⟩
  rw [mem_blk]
  obtain ⟨i0, i1, x0, x1, -, -⟩ := point_facts t
  intro a
  match a with
  | ⟨0, _⟩ =>
    show win0_0.index t (0 : Fin 2) * 1024 ≤ (i 0).val ∧ (i 0).val < win0_0.index t (0 : Fin 2) * 1024 + win0_0.xsize (grid0.coords t) (0 : Fin 2)
    rw [i0, x0, tv]
    split_ifs <;> omega
  | ⟨1, _⟩ =>
    show win0_0.index t (1 : Fin 2) * 1024 ≤ (i 1).val ∧ (i 1).val < win0_0.index t (1 : Fin 2) * 1024 + win0_0.xsize (grid0.coords t) (1 : Fin 2)
    rw [i1, x1, tv]
    split_ifs <;> omega

/-- THE ARRAY after the run is the scaled matrix. -/
theorem final (c : Dev nD) : (dats m 0 c).arrAt 0 cfg0.N = adj :=
  (dats m 0 c).arrAt_eq_of_cover 0 adj (fun t _ => flushed_eq m c t) cover

/-! ## The run, read -/

/-- Every weakly fair execution of the kernel's program terminates with the result array at the scaled matrix and the
    argument array unchanged. -/
theorem run : θ_run defs (onTc (τ := τ) (main (F := Ideal))) ⟨m, fun _ => 0, ρ⟩ fun r => ∀ c : Dev nD,
      r.2.mem ((c.tc : Thread nD τ).loc main_v0) = adj
      ∧ r.2.mem ((c.tc : Thread nD τ).loc main_arg0) = m ((c.tc : Thread nD τ).loc main_arg0) :=
  (θ_run defs _ _).mono (fun r h c => ⟨((h c).1 0).trans (final m c),
      ((h c).2 main_arg0 (Pipeline.mem_restRefs_of main_arg0 (by decide) (by decide))).trans (V_main_arg0 m c)⟩)
    (run_main m ρ)

end Cert.KernelIdeal.AdjValue

end
-- ==== Proof.LibScatterSet.lean ====
/-
  Reading a replacing scatter at an index.

  A scatter whose body returns the update (`x.at[idx].set(upd)`) is a left fold, over the update indices in
  row-major order, of the step "overwrite the element the update lands on, when it lands inside".  When
  every update lands inside and no two updates land on the same element, the order of the fold does not
  matter: an element some update lands on holds that update, every other element holds the operand's.
  The two facts are first proved for a fold of such overwriting steps over an arbitrary list, then
  specialised to the row-major list of update indices.
-/
import Idealize.ShloMosaic.PureOps.ShapeOps

namespace Idealize.ShloMosaic.ScatterSet

section Fold
variable {ι β α : Type} [DecidableEq β]

/-- One overwriting step: item `n` lands on `land n` (or nowhere) and carries the value `val n`; the
    step replaces the element it lands on and keeps every other element. -/
def step (land : ι → Option β) (val : ι → α) (r : β → α) (n : ι) : β → α :=
  match land n with
  | some i => fun i' => if i' = i then val n else r i'
  | none => r

/-- A step whose item does not land on `i` keeps the element at `i`. -/
theorem step_of_ne (land : ι → Option β) (val : ι → α) (r : β → α) (n : ι) (i : β) (h : land n ≠ some i) :
    step land val r n i = r i := by
  unfold step
  cases hn : land n with
  | none => rfl
  | some k =>
    have hik : i ≠ k := fun e => h (by rw [hn, e])
    exact if_neg hik

/-- A step whose item lands on `i` leaves the item's value at `i`. -/
theorem step_of_eq (land : ι → Option β) (val : ι → α) (r : β → α) (n : ι) (i : β) (h : land n = some i) :
    step land val r n i = val n := by
  unfold step
  rw [h]
  exact if_pos rfl

/-- If no item of the list lands on `i`, folding the steps over the list keeps the element at `i`. -/
theorem foldl_step_miss (land : ι → Option β) (val : ι → α) (i : β) :
    ∀ (l : List ι) (r : β → α), (∀ n ∈ l, land n ≠ some i) → l.foldl (step land val) r i = r i
  | [], _, _ => rfl
  | n :: l, r, h => by
    rw [List.foldl_cons, foldl_step_miss land val i l _ fun m hm => h m (List.mem_cons_of_mem _ hm)]
    exact step_of_ne land val r n i (h n List.mem_cons_self)

/-- If the list has no repeated item, `n0` is in it and lands on `i`, and no other item of the list lands on
    `i`, then after folding the steps over the list the element at `i` is the value `n0` carries. -/
theorem foldl_step_hit (land : ι → Option β) (val : ι → α) (i : β) (n0 : ι) (h0 : land n0 = some i) :
    ∀ (l : List ι) (r : β → α), l.Nodup → n0 ∈ l → (∀ n ∈ l, land n = some i → n = n0) →
      l.foldl (step land val) r i = val n0
  | [], _, _, hm, _ => absurd hm List.not_mem_nil
  | n :: l, r, hnd, hm, huniq => by
    rw [List.foldl_cons]
    have hnd' := List.nodup_cons.1 hnd
    by_cases hn : n = n0
    · subst hn
      rw [foldl_step_miss land val i l _ fun m hml e => hnd'.1 (huniq m (List.mem_cons_of_mem _ hml) e ▸ hml)]
      exact step_of_eq land val r n i h0
    · have hm' : n0 ∈ l := by
        rcases List.mem_cons.1 hm with e | e
        · exact absurd e.symm hn
        · exact e
      exact foldl_step_hit land val i n0 h0 l _ hnd'.2 hm' fun m hml => huniq m (List.mem_cons_of_mem _ hml)

end Fold

section Scatter
variable {s si u : Shape} {α : Type} {w : Nat}

/-- The replacing scatter is the fold of overwriting steps over the update indices in row-major order,
    item `n` landing where `resultIdx?` sends the `n`-th update index and carrying that update. -/
theorem scatter_set_eq_foldl (d : ScatterDims s si u) (x : s.Idx → α) (idx : IVec si w) (upd : u.Idx → α) :
    Host.scatter d (fun _ b => b) x idx upd =
      (List.finRange u.numel).foldl
        (step (fun n => d.resultIdx? (u.rowMajor.symm n) idx) (fun n => upd (u.rowMajor.symm n))) x := by
  unfold Host.scatter
  refine congrArg (fun f => List.foldl f x (List.finRange u.numel)) ?_
  funext r n
  unfold step
  beta_reduce
  generalize d.resultIdx? (u.rowMajor.symm n) idx = o
  cases o <;> rfl

/-- An element no update lands on keeps the operand's value. -/
theorem scatter_set_of_forall_ne (d : ScatterDims s si u) (x : s.Idx → α) (idx : IVec si w) (upd : u.Idx → α)
    (i : s.Idx) (h : ∀ j, d.resultIdx? j idx ≠ some i) : Host.scatter d (fun _ b => b) x idx upd i = x i := by
  rw [scatter_set_eq_foldl]
  exact foldl_step_miss _ _ i _ x fun n _ => h _

/-- When update index `j` lands on `i` and is the only update index that does, the element at `i` is
    the update at `j`. -/
theorem scatter_set_of_unique (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_set_eq_foldl]
  have e := foldl_step_hit (fun n => d.resultIdx? (u.rowMajor.symm n) idx) (fun n => upd (u.rowMajor.symm n)) i
    (u.rowMajor j) (by simpa using hj) (List.finRange u.numel) x (List.nodup_finRange _) (List.mem_finRange _)
    (fun n _ hn => by
      have := huniq _ hn
      rw [← this]; simp)
  simpa using e

/-- Every update lands inside, update index `j` on `g j`, and `g` is injective: the element at `g j` is
    the update at `j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j :=
  scatter_set_of_unique d x idx upd (g j) j (hg j) fun j' hj' => hinj (Option.some.inj ((hg j').symm.trans hj'))

/-- Every update lands inside, update index `j` on `g j`: an element that is no `g j` keeps the
    operand's value. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i :=
  scatter_set_of_forall_ne d x idx upd i fun j e => hi j (Option.some.inj ((hg j).symm.trans e))

end Scatter

end Idealize.ShloMosaic.ScatterSet
-- ==== Proof.ReferenceValue.lean ====
/-
  What the reference computes: the scaled adjacency matrix, index by index.

  The reference builds the identity (a comparison of the two coordinates, converted to a float), overwrites its last
  four rows and columns with ones (a replacing scatter of a 4 × 4 block at (8192, 8192)), sums each row, raises the sums to
  the power -1/2 and multiplies: result[r, c] = (d_r · A[c, r]) · d_c. Read one operation at a time:
    * the scatter's sixteen updates land on the sixteen distinct indices (8192 + j₀, 8192 + j₁), inside the array, so
      an index in the block holds the update, one, and every other index keeps the identity's entry: the matrix is
      `entry` of the law module;
    * a row sum is zero plus the sum of the row's entries;
    * the rest is the law of that module.
-/
import proofs.«174708_j14740327759981_2_alg».proof.Proof.Gen.ReferenceIdeal.Read
import proofs.«174708_j14740327759981_2_alg».proof.Proof.LibScatterSet
import proofs.«174708_j14740327759981_2_alg».proof.Proof.AdjacencyLaw
import proofs.«174708_j14740327759981_2_alg».proof.Proof.Words
import Idealize.ShloMosaic.Lib.ValueIdx

set_option maxRecDepth 16384

noncomputable section

namespace Cert.ReferenceIdeal.AdjValue

open Cert.ReferenceIdeal Cert.ReferenceIdeal.Gen Cert.ReferenceIdeal.Read Cert.Adjacency
open Idealize.ShloMosaic Idealize.ShloMosaic.TcCoe Idealize.SL.Sem Idealize.ShloMosaic.ValueIdx

local notation "blockDims" => scatter_S8196x8196_S2_S4x4_01_n_01_0

theorem size4 (a : Fin 2) : S4x4.size a = 4 := by match a with | ⟨0, _⟩ => rfl | ⟨1, _⟩ => rfl
theorem size8196 (a : Fin 2) : S8196x8196.size a = 8196 := by match a with | ⟨0, _⟩ => rfl | ⟨1, _⟩ => rfl

/-! ## The identity -/

/-- The identity's entry: one on the diagonal, zero off it. -/
theorem identity_apply (i : S8196x8196.Idx) :
    val_main_v5 (F := Ideal) i = (((if (i 0).val = (i 1).val then 1 else 0 : ℝ)) : EReal) := by
  have h0 : (i 0).val < 8196 := (i 0).isLt
  have h1 : (i 1).val < 8196 := (i 1).isLt
  rw [val_main_v5_apply, val_main_v4_apply, val_main_v3_apply, val_main_v2_apply, val_main_c_apply, val_main_v0_apply,
    val_main_v1_apply]
  have hadd : IntOp.addi (BitVec.ofNat 32 (i 0).val) 0#32 = BitVec.ofNat 32 (i 0).val := by
    unfold IntOp.addi; exact BitVec.add_zero _
  rw [hadd, Cert.Words.cmpi_eq_ofNat (by omega) (by omega)]
  show (((if (i 0).val = (i 1).val then 1#1 else 0#1 : BitVec 1).toNat : ℝ) : EReal) = _
  by_cases e : (i 0).val = (i 1).val
  · rw [if_pos e, if_pos e]; norm_num
  · rw [if_neg e, if_neg e]; norm_num

/-! ## The block of ones -/

/-- Both components of the scatter's one start index are the word 8192. -/
theorem start_word : ∀ k : S2.Idx, (val_main_v8 (F := Ideal) k : BitVec 32) = 8192#32 := by
  decide +kernel

/-- An update's window coordinate on an axis is its own coordinate there. -/
theorem window_eq (j : S4x4.Idx) (a : Fin 2) : (blockDims).window j a = (j a).val := by
  match a with | ⟨0, _⟩ => rfl | ⟨1, _⟩ => rfl

/-- The window starts at 8192 on both axes. -/
theorem start_eq (j : S4x4.Idx) (a : Fin 2) : (blockDims).start j (val_main_v8 (F := Ideal)) a = 8192 := by
  unfold ScatterDims.start
  have ha : a ∈ (blockDims).scatterDimsToOperandDims := by
    match a with
    | ⟨0, _⟩ => exact List.mem_cons_self
    | ⟨1, _⟩ => exact List.mem_cons_of_mem _ List.mem_cons_self
  rw [dif_pos ha, start_word]
  decide

/-- Where update `j` lands: (8192 + j₀, 8192 + j₁). -/
def land (j : S4x4.Idx) : S8196x8196.Idx := fun a =>
  ⟨8192 + (j a).val, by
    have h : (j a).val < 4 := lt_of_lt_of_eq (j a).isLt (size4 a)
    exact lt_of_lt_of_eq (show 8192 + (j a).val < 8196 by omega) (size8196 a).symm⟩

theorem lands (j : S4x4.Idx) : (blockDims).resultIdx? j (val_main_v8 (F := Ideal)) = some (land j) := by
  unfold ScatterDims.resultIdx?
  have hall : ∀ a : Fin 2, 0 ≤ (blockDims).start j (val_main_v8 (F := Ideal)) a + (blockDims).window j a
      ∧ (blockDims).start j (val_main_v8 (F := Ideal)) a + (blockDims).window j a < S8196x8196.size a := by
    intro a
    have h : (j a).val < 4 := lt_of_lt_of_eq (j a).isLt (size4 a)
    rw [start_eq, window_eq, size8196]; omega
  rw [dif_pos hall]
  refine congrArg some (funext fun a => Fin.ext ?_)
  show ((blockDims).start j (val_main_v8 (F := Ideal)) a + ((blockDims).window j a : Int)).toNat = 8192 + (j a).val
  rw [start_eq, window_eq]; omega

/-- The matrix after the scatter is `entry`: ones in the block, the identity elsewhere. -/
theorem matrix_apply (i : S8196x8196.Idx) :
    val_main_v10 (F := Ideal) i = ((entry (i 0).val (i 1).val : ℝ) : EReal) := by
  have h0 : (i 0).val < 8196 := (i 0).isLt
  have h1 : (i 1).val < 8196 := (i 1).isLt
  unfold val_main_v10
  by_cases hb : 8192 ≤ (i 0).val ∧ 8192 ≤ (i 1).val
  · -- in the block: the index is where some update lands
    let j : S4x4.Idx := fun a => match a with
      | ⟨0, _⟩ => ⟨(i 0).val - 8192, by show (i 0).val - 8192 < 4; omega⟩
      | ⟨1, _⟩ => ⟨(i 1).val - 8192, by show (i 1).val - 8192 < 4; omega⟩
    have hij : land j = i := funext fun a => Fin.ext (by
      match a with
      | ⟨0, _⟩ => show 8192 + ((i 0).val - 8192) = (i 0).val; omega
      | ⟨1, _⟩ => show 8192 + ((i 1).val - 8192) = (i 1).val; omega)
    have hinj : Function.Injective land := fun j₁ j₂ e => funext fun a => Fin.ext (by
      have := congrArg (fun x : S8196x8196.Idx => (x a).val) e
      show (j₁ a).val = (j₂ a).val
      have e' : 8192 + (j₁ a).val = 8192 + (j₂ a).val := this
      omega)
    rw [← hij, ScatterSet.scatter_set_hit (blockDims) _ _ _ land lands hinj j, val_main_v9_apply, val_main_cst_apply, hij]
    show Ideal.ofBits .f32 0x3F800000#32 = _
    rw [word_one]
    unfold entry; rw [if_pos (Or.inr hb)]
  · -- outside the block: no update lands there
    rw [ScatterSet.scatter_set_miss (blockDims) _ _ _ land lands i (fun j e => hb (by
      have e0 : 8192 + (j 0).val = (i 0).val := congrArg (fun x : S8196x8196.Idx => (x 0).val) e
      have e1 : 8192 + (j 1).val = (i 1).val := congrArg (fun x : S8196x8196.Idx => (x 1).val) e
      omega)), identity_apply]
    refine congrArg (fun x : ℝ => (x : EReal)) ?_
    unfold entry
    by_cases e : (i 0).val = (i 1).val
    · rw [if_pos e, if_pos (Or.inl e)]
    · rw [if_neg e, if_neg (by rintro (h | h); exacts [e h, hb h])]

/-! ## The scaling -/

/-- d_r: the row sum from zero, to the power -1/2. -/
theorem scale_apply (r : S8196.Idx) :
    val_main_v13 (F := Ideal) r
      = Ideal.pow (((0 : ℝ) : EReal) + ∑ k : Fin 8196, ((entry (r 0).val k.val : ℝ) : EReal)) ((-(1 / 2) : ℝ) : EReal) := by
  rw [val_main_v13_apply, val_main_v11_apply, val_main_v12_apply, val_main_cst_2_apply, val_main_cst_3_apply]
  show Ideal.pow (Ideal.ofBits .f32 0x00000000#32 + _) (Ideal.ofBits .f32 0xBF000000#32) = _
  rw [word_zero, word_neg_half]
  refine congrArg (fun s => Ideal.pow (((0 : ℝ) : EReal) + s) _) (Finset.sum_congr rfl fun k _ => ?_)
  rw [matrix_apply]

/-- THE REFERENCE'S RESULT is the scaled matrix. -/
theorem result_apply (i : S8196x8196.Idx) :
    val_main_v20 (F := Ideal) i = ((scaled (i 0).val (i 1).val : ℝ) : EReal) := by
  rw [val_main_v20_apply, val_main_v17_apply, val_main_v16_apply, val_main_v14_apply, val_main_v15_apply,
    val_main_v19_apply, val_main_v18_apply, scale_apply, scale_apply, matrix_apply]
  exact scaled_entry_ereal (i 0).val (i 1).val (i 0).isLt (i 1).isLt

end Cert.ReferenceIdeal.AdjValue

end
-- ==== Proof.lean ====
/-
  The normalised adjacency kernel against its reference.

  Both programs compute, from the shape of their argument alone, the 8196 × 8196 matrix D·A·D where A is the identity
  with a 4 × 4 block of ones in its last rows and columns and D = diag(rowsum(A)^(-1/2)): entry (r, c) is 1 where
  r = c < 8192, 1/4 where r, c ≥ 8192, and 0 elsewhere.
    * The kernel writes that matrix tile by tile, choosing per tile among the local identity pattern, the constant 1/4
      and zero; its body at every grid point, the run built on it and the frame are in the two body modules (the
      same text at the word-level and at the ideal reading), and the result array read as the scaled matrix in the
      kernel's value module.
    * The reference builds A, sums its rows, takes the power and multiplies; read one operation at a time it is the
      same matrix (the reference's value module, over the law proved on the reals in the law module).
  The idealization rewrote nothing, so its conjunct is trivial; neither side reads the argument's values, so the
  precondition is never opened.
-/
import proofs.«174708_j14740327759981_2_alg».proof.Defs
import proofs.«174708_j14740327759981_2_alg».proof.Proof.Gen.Kernel
import proofs.«174708_j14740327759981_2_alg».proof.Proof.Gen.KernelIdeal
import proofs.«174708_j14740327759981_2_alg».proof.Proof.Gen.ReferenceIdeal
import proofs.«174708_j14740327759981_2_alg».proof.Proof.Gen.ReferenceIdeal.Run
import proofs.«174708_j14740327759981_2_alg».proof.Proof.Gen.ReferenceIdeal.Read
import proofs.«174708_j14740327759981_2_alg».proof.Proof.Gen.Pre_finite_inputs
import proofs.«174708_j14740327759981_2_alg».proof.Proof.BodyWords
import proofs.«174708_j14740327759981_2_alg».proof.Proof.BodyIdeal
import proofs.«174708_j14740327759981_2_alg».proof.Proof.KernelValue
import proofs.«174708_j14740327759981_2_alg».proof.Proof.ReferenceValue
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Body.frame (F := Bits) m ρ

/-- So does its ideal reading. -/
theorem frame_kernel_ideal : Cert.frame_KernelIdeal := fun m ρ _ => Cert.KernelIdeal.Body.frame (F := Ideal) m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the scaled matrix in their result: the kernel's array is it (its value module), and the
    reference's composed term is it at every index. -/
theorem algebraic : Cert.algebraic_KernelIdeal_ReferenceIdeal := by
  intro m ρ m' ρ' _ _
  refine ⟨fun _ => Cert.KernelIdeal.AdjValue.adj, Cert.KernelIdeal.AdjValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq]
  funext i
  exact Cert.ReferenceIdeal.AdjValue.result_apply i

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
